-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S128x4096 : Shape := ⟨2, ![128, 4096]⟩
abbrev S4096x128 : Shape := ⟨2, ![4096, 128]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S128x4096 : S_.BroadcastsInDim S128x4096 (![] : Fin 0 → Fin S128x4096.rank)
  reducesTo_S128x4096_S_d0_1 : S128x4096.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4x4096x4096 .f32) (main_arg1 : FVec F S128x4096 .f32) (main_arg2 : FVec F S4096x128 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S4x4096x4096 : Shape := ⟨3, ![4, 4096, 4096]⟩
abbrev S128x4096 : Shape := ⟨2, ![128, 4096]⟩
abbrev S4096x128 : Shape := ⟨2, ![4096, 128]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩
abbrev S512x128 : Shape := ⟨2, ![512, 128]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S128x4096, .f32⟩
  | .hbm, ⟨2, _⟩ => ⟨S4096x128, .f32⟩
  | .hbm, ⟨3, _⟩ => ⟨S16384x4096, .f32⟩
  | .hbm, ⟨4, _⟩ => ⟨S16384x4096, .f32⟩
  | .hbm, ⟨5, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S128x4096, .f32⟩
  | .local _ .vmem, ⟨3, _⟩ => ⟨S4096x128, .f32⟩
  | .local _ .vmem, ⟨4, _⟩ => ⟨S512x4096, .f32⟩
  | .local _ .vmem, ⟨5, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x4096_S16384x4096 : S4x4096x4096.ShapeCasts S16384x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  inb_S128x4096_S128x4096_0_0 : ∀ a, (![0, 0] : Fin 2 → Nat) a + S128x4096.size a ≤ S128x4096.size a
  h_S128x4096 : 0 < S128x4096.numel
  inb_S4096x128_S4096x128_0_0 : ∀ a, (![0, 0] : Fin 2 → Nat) a + S4096x128.size a ≤ S4096x128.size a
  h_S4096x128 : 0 < S4096x128.numel
  shapeCasts_S16384x4096_S4x4096x4096 : S16384x4096.ShapeCasts S4x4096x4096
  dot_S512x4096_S128x4096_S512x128_1_1_0_0_n_n_wf : DotDims.WF S512x4096 S128x4096 S512x128 [1] [1] [0] [0] [] []
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S128x4096 : Shape := ⟨2, ![128, 4096]⟩
abbrev S4096x128 : Shape := ⟨2, ![4096, 128]⟩
abbrev S_ : Shape := ⟨0, ![]⟩
abbrev S4x4096 : Shape := ⟨2, ![4, 4096]⟩
abbrev S4x4096x1 : Shape := ⟨3, ![4, 4096, 1]⟩
abbrev S4x4096x128 : Shape := ⟨3, ![4, 4096, 128]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S128x4096, .f32⟩
  | .hbm, ⟨2, _⟩ => ⟨S4096x128, .f32⟩
  | .hbm, ⟨3, _⟩ => ⟨S4x4096x4096, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S4x4096x128, .f32⟩
  | .hbm, ⟨17, _⟩ => ⟨S4x4096x128, .f32⟩
  | .hbm, ⟨18, _⟩ => ⟨S4x4096x128, .f32⟩
  | .hbm, ⟨19, _⟩ => ⟨S_, .f32⟩
  | .hbm, ⟨20, _⟩ => ⟨S4x4096x128, .f32⟩
  | .hbm, ⟨21, _⟩ => ⟨S4x4096x128, .f32⟩
  | .hbm, ⟨22, _⟩ => ⟨S_, .f32⟩
  | .hbm, ⟨23, _⟩ => ⟨S4x4096x128, .f32⟩
  | .hbm, ⟨24, _⟩ => ⟨S4x4096x128, .f32⟩
  | .hbm, ⟨25, _⟩ => ⟨S4x4096x128, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  bcast_S_S4x4096x128 : S_.BroadcastsInDim S4x4096x128 (![] : Fin 0 → Fin S4x4096x128.rank)
  bcast_S_S4x4096x4096 : S_.BroadcastsInDim S4x4096x4096 (![] : Fin 0 → Fin S4x4096x4096.rank)
  dot_S4x4096x4096_S128x4096_S4x4096x128_2_1_01_0_n_n_wf : DotDims.WF S4x4096x4096 S128x4096 S4x4096x128 [2] [1] [0, 1] [0] [] []
  dot_S4x4096x128_S4096x128_S4x4096x4096_2_1_01_0_n_n_wf : DotDims.WF S4x4096x128 S4096x128 S4x4096x4096 [2] [1] [0, 1] [0] [] []

variable [Facts₀]

def dot_S4x4096x4096_S128x4096_S4x4096x128_2_1_01_0_n_n : DotDims S4x4096x4096 S128x4096 S4x4096x128 where
  lhsContracting := [2]
  rhsContracting := [1]
  lhsNonContracting := [0, 1]
  rhsNonContracting := [0]
  lhsBatch := []
  rhsBatch := []
  wf := dot_S4x4096x4096_S128x4096_S4x4096x128_2_1_01_0_n_n_wf
def dot_S4x4096x128_S4096x128_S4x4096x4096_2_1_01_0_n_n : DotDims S4x4096x128 S4096x128 S4x4096x4096 where
  lhsContracting := [2]
  rhsContracting := [1]
  lhsNonContracting := [0, 1]
  rhsNonContracting := [0]
  lhsBatch := []
  rhsBatch := []
  wf := dot_S4x4096x128_S4096x128_S4x4096x4096_2_1_01_0_n_n_wf

class Facts : Prop extends Facts₀ where

variable [Facts]
-- ==== Proof.GatedNorm.lean ====
/-
  The gated RMS normalisation, one row at a time.

  A row `x` of 4096 extended reals is scaled by the reciprocal root of its mean square plus a small constant,
  `xn d = x d · (Σₖ x k · x k / 4096 + ε)^(-1/2)`.  The scaled row is projected down to 128 numbers by the matrix
  `wd` (`h r = Σₖ xn k · wd r k`), each passed through `u ↦ u · σ(u)` with `σ` the logistic function, projected back
  up to 4096 numbers by the matrix `wu` (`g d = Σₖ h k · wu d k`), and the scaled row is multiplied entry by entry
  by `σ (g d)`.  The result array of shape 4 × 4096 × 4096 holds, at `(b, s, d)`, entry `d` of this function of the row
  `x (b, s, ·)`; nothing in a row's result depends on any other row.

  The two float constants stay as the words the programs print: `0x45800000` is 4096 and `0x34000000` is 2⁻²³.
-/
import Idealize.ShloMosaic.PureOps.Ideal
import Idealize.ShloMosaic.Lib.ValueIdx

noncomputable section

open scoped BigOperators

namespace Cert.GatedNorm

open Idealize.ShloMosaic Idealize.ShloMosaic.ValueIdx

/-- A row of the input. -/
abbrev Row := Fin 4096 → EReal
/-- The down projection's matrix, 128 × 4096. -/
abbrev DownW := (⟨2, ![128, 4096]⟩ : Shape).Idx → EReal
/-- The up projection's matrix, 4096 × 128. -/
abbrev UpW := (⟨2, ![4096, 128]⟩ : Shape).Idx → EReal
/-- The whole input and the whole result, 4 × 4096 × 4096. -/
abbrev Arr := (⟨3, ![4, 4096, 4096]⟩ : Shape).Idx → EReal

/-- The row's sum of squares. -/
def sumSq (x : Row) : EReal := ∑ k : Fin 4096, x k * x k

/-- The reciprocal root of the row's mean square plus the constant. -/
def scale (x : Row) : EReal :=
  Ideal.rsqrt (Ideal.div (sumSq x) (Ideal.ofBits .f32 0x45800000#32) + Ideal.ofBits .f32 0x34000000#32)

/-- The scaled row. -/
def normed (x : Row) (d : Fin 4096) : EReal := x d * scale x

/-- The scaled row projected down. -/
def downProj (x : Row) (wd : DownW) (r : Fin 128) : EReal := ∑ k : Fin 4096, normed x k * wd (ix2 r k)

/-- The projection through `u ↦ u · σ(u)`. -/
def siluDown (x : Row) (wd : DownW) (r : Fin 128) : EReal := downProj x wd r * Ideal.logistic (downProj x wd r)

/-- Projected back up. -/
def upProj (x : Row) (wd : DownW) (wu : UpW) (d : Fin 4096) : EReal := ∑ k : Fin 128, siluDown x wd k * wu (ix2 d k)

/-- The scaled row gated by the logistic of the up projection. -/
def gated (x : Row) (wd : DownW) (wu : UpW) (d : Fin 4096) : EReal := normed x d * Ideal.logistic (upProj x wd wu d)

/-- Row `(b, s)` of the input array. -/
def rowOf (X : Arr) (b : Fin 4) (s : Fin 4096) : Row := fun k => X (ix3 b s k)

/-- The result array: at `(b, s, d)`, entry `d` of the gated normalisation of row `(b, s)`. -/
def result (X : Arr) (wd : DownW) (wu : UpW) : Arr :=
  fun i => gated (rowOf X ⟨(i 0).val, (i 0).isLt⟩ ⟨(i 1).val, (i 1).isLt⟩) wd wu ⟨(i 2).val, (i 2).isLt⟩

theorem result_apply (X : Arr) (wd : DownW) (wu : UpW) (b : Fin 4) (s : Fin 4096) (d : Fin 4096) :
    result X wd wu (ix3 b s d) = gated (rowOf X b s) wd wu d := rfl

/-- The logistic function is the quotient the host spells out, with the float word for one. -/
theorem logistic_eq_quotient (u : EReal) :
    Ideal.div (Ideal.ofBits .f32 0x3F800000#32) (Ideal.ofBits .f32 0x3F800000#32 + Ideal.exp (-u)) = Ideal.logistic u := by
  have h1 : Ideal.ofBits .f32 0x3F800000#32 = 1 := by simp [Ideal.ofBits, Ideal.ieee, -EReal.coe_mul]; norm_num
  rw [h1]; rfl

end Cert.GatedNorm

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBlock.lean ====
/-
  One block of the kernel computes the gated RMS normalisation of its 512 rows.

  The body loads a block of 512 rows of the input and the two whole matrices, and stores one 512 × 4096 value.  That
  value is written here as four stages — the block with every row scaled, its down projection, that projection
  through `u ↦ u · σ(u)`, and the up projection — and each stage is read at an index `(p, ·)`.  A stage's entry in row
  `p` depends on row `p` of the block only: the lane sum runs along the row, both matrix products contract the second
  axis of their left operand with the second axis of the matrix, and the rest is pointwise or repeats a column along
  the row.  So row `p` of the stored value is the one-row function of row `p` of the block.  The lane sum starts from the
  neutral zero and the products accumulate into a zero splat, so both are plain sums.
-/
import proofs.«111381_j56023553409270_2_alg».proof.Proof.Gen.KernelIdeal.Skeleton
import proofs.«111381_j56023553409270_2_alg».proof.Proof.GatedNorm
import proofs.«111381_j56023553409270_2_alg».proof.Proof.LibColumn
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.GatedNorm

/-- The reciprocal root and the logistic function act entry by entry. -/
theorem rsqrt_apply {s : Shape} (a : FVec Ideal s .f32) (i : s.Idx) : rsqrt a i = Ideal.rsqrt (a i) := rfl
theorem logistic_apply {s : Shape} (a : FVec Ideal s .f32) (i : s.Idx) : logistic a i = Ideal.logistic (a i) := rfl

variable (x0 : FVec Ideal S512x4096 .f32) (x1 : FVec Ideal S128x4096 .f32) (x2 : FVec Ideal S4096x128 .f32)

/-- Row `p` of the block. -/
def blockRow (p : Fin 512) : Row := fun k => x0 (ix2 p k)

/-! ## The stages of the stored value -/

/-- The lane sums of the block's squares: one number per row. -/
def sumSqCol : FVec Ideal S512 .f32 :=
  multiReduction (F := Ideal) .add [1] S512
    (mulf (shapeCast S512x4096 x0 shapeCasts_S512x4096_S512x4096) (shapeCast S512x4096 x0 shapeCasts_S512x4096_S512x4096))
    0x00000000#32 reduces_S512x4096_S512 (.inl rfl) rfl

/-- The reciprocal root of each row's mean square plus the constant, kept as a column. -/
def scaleCol : FVec Ideal S512x1 .f32 :=
  rsqrt (addf (divf (shapeCast S512x1 (sumSqCol x0) shapeCasts_S512_S512x1)
      (broadcast S512x1 (Scalar.ofBits (F := Ideal) .f32 0x45800000#32)))
    (broadcast S512x1 (Scalar.ofBits (F := Ideal) .f32 0x34000000#32)))

/-- The block with every row scaled by its entry of that column. -/
def scaledBlock : FVec Ideal S512x4096 .f32 :=
  mulf (shapeCast S512x4096 x0 shapeCasts_S512x4096_S512x4096)
    (broadcastTo S512x4096 (scaleCol x0) broadcasts_S512x1_S512x4096)

/-- The scaled block times the transposed down matrix. -/
def downBlock : FVec Ideal S512x128 .f32 :=
  matmul dot_S512x4096_S128x4096_S512x128_1_1_0_0_n_n (some .fp32) (scaledBlock x0) x1 (constant (F := Ideal) S512x128 .f32 0x00000000#32)

/-- That product through `u ↦ u · σ(u)`. -/
def siluBlock : FVec Ideal S512x128 .f32 := mulf (downBlock x0 x1) (logistic (downBlock x0 x1))

/-- Times the transposed up matrix. -/
def upBlock : FVec Ideal S512x4096 .f32 :=
  matmul dot_S512x128_S4096x128_S512x4096_1_1_0_0_n_n (some .fp32) (siluBlock x0 x1) x2 (constant (F := Ideal) S512x4096 .f32 0x00000000#32)

/-- The stored value is the scaled block times the logistic of the up projection. -/
theorem pay_eq : k0_pay1 (F := Ideal) x0 x1 x2 = mulf (scaledBlock x0) (logistic (upBlock x0 x1 x2)) := rfl

/-! ## Each stage, row by row -/

/-- The lane sum of the squares in row `p` is the row's sum of squares. -/
theorem sumSqCol_at (p : Fin 512) : sumSqCol x0 (ix1 p) = sumSq (blockRow x0 p) := by
  unfold sumSqCol
  refine (Ideal.multiReduction_add_single _ 0x00000000#32 reduces_S512x4096_S512 (.inl rfl) rfl (ix1 p)).trans ?_
  unfold sumSq
  refine Finset.sum_congr rfl fun k _ => ?_
  have e : reduces_S512x4096_S512.lift (ix1 p) k = ix2 p (⟨k.val, k.isLt⟩ : Fin 4096) := by
    funext c; apply Fin.ext; fin_cases c <;> rfl
  rw [e, mulf_apply, shapeCast_self]
  rfl

/-- The column's entry for row `p` is the row's scale. -/
theorem scaleCol_at (p : Fin 512) (u : Fin 1) : scaleCol x0 (ix2 p u) = scale (blockRow x0 p) := by
  unfold scaleCol
  rw [rsqrt_apply, addf_apply, divf_apply, broadcast_apply, broadcast_apply, LibColumn.shapeCast_a_a1_apply, sumSqCol_at]
  rfl

/-- The scaled block at `(p, d)`. -/
theorem scaled_at (p : Fin 512) (d : Fin 4096) : scaledBlock x0 (ix2 p d) = normed (blockRow x0 p) d := by
  unfold scaledBlock
  rw [mulf_apply, shapeCast_self, LibColumn.broadcastTo_a1_ab_apply, scaleCol_at]
  rfl

/-! The two products' index maps, coordinate by coordinate: the left operand is read at the result's row and the
    contracted coordinate, the matrix at the result's column and the contracted coordinate. -/

theorem down_lhs0 (i : S512x128.Idx) (q : dot_S512x4096_S128x4096_S512x128_1_1_0_0_n_n.contr.Idx) :
    (dot_S512x4096_S128x4096_S512x128_1_1_0_0_n_n.lhsIdx i q 0).val = (i 0).val := by
  unfold DotDims.lhsIdx
  rw [dif_neg (show ¬(0 : Fin S512x4096.rank) ∈ dot_S512x4096_S128x4096_S512x128_1_1_0_0_n_n.lhsBatch by decide),
    dif_pos (show (0 : Fin S512x4096.rank) ∈ dot_S512x4096_S128x4096_S512x128_1_1_0_0_n_n.lhsNonContracting by decide)]
  rfl
theorem down_lhs1 (i : S512x128.Idx) (q : dot_S512x4096_S128x4096_S512x128_1_1_0_0_n_n.contr.Idx) :
    (dot_S512x4096_S128x4096_S512x128_1_1_0_0_n_n.lhsIdx i q 1).val = (q ⟨0, by decide⟩).val :=
  dot_S512x4096_S128x4096_S512x128_1_1_0_0_n_n.lhsIdx_val_of_single rfl i q
theorem down_rhs0 (i : S512x128.Idx) (q : dot_S512x4096_S128x4096_S512x128_1_1_0_0_n_n.contr.Idx) :
    (dot_S512x4096_S128x4096_S512x128_1_1_0_0_n_n.rhsIdx i q 0).val = (i 1).val := by
  unfold DotDims.rhsIdx
  rw [dif_neg (show ¬(0 : Fin S128x4096.rank) ∈ dot_S512x4096_S128x4096_S512x128_1_1_0_0_n_n.rhsBatch by decide),
    dif_pos (show (0 : Fin S128x4096.rank) ∈ dot_S512x4096_S128x4096_S512x128_1_1_0_0_n_n.rhsNonContracting by decide)]
  rfl
theorem down_rhs1 (i : S512x128.Idx) (q : dot_S512x4096_S128x4096_S512x128_1_1_0_0_n_n.contr.Idx) :
    (dot_S512x4096_S128x4096_S512x128_1_1_0_0_n_n.rhsIdx i q 1).val = (q ⟨0, by decide⟩).val :=
  dot_S512x4096_S128x4096_S512x128_1_1_0_0_n_n.rhsIdx_val_of_single rfl i q

theorem up_lhs0 (i : S512x4096.Idx) (q : dot_S512x128_S4096x128_S512x4096_1_1_0_0_n_n.contr.Idx) :
    (dot_S512x128_S4096x128_S512x4096_1_1_0_0_n_n.lhsIdx i q 0).val = (i 0).val := by
  unfold DotDims.lhsIdx
  rw [dif_neg (show ¬(0 : Fin S512x128.rank) ∈ dot_S512x128_S4096x128_S512x4096_1_1_0_0_n_n.lhsBatch by decide),
    dif_pos (show (0 : Fin S512x128.rank) ∈ dot_S512x128_S4096x128_S512x4096_1_1_0_0_n_n.lhsNonContracting by decide)]
  rfl
theorem up_lhs1 (i : S512x4096.Idx) (q : dot_S512x128_S4096x128_S512x4096_1_1_0_0_n_n.contr.Idx) :
    (dot_S512x128_S4096x128_S512x4096_1_1_0_0_n_n.lhsIdx i q 1).val = (q ⟨0, by decide⟩).val :=
  dot_S512x128_S4096x128_S512x4096_1_1_0_0_n_n.lhsIdx_val_of_single rfl i q
theorem up_rhs0 (i : S512x4096.Idx) (q : dot_S512x128_S4096x128_S512x4096_1_1_0_0_n_n.contr.Idx) :
    (dot_S512x128_S4096x128_S512x4096_1_1_0_0_n_n.rhsIdx i q 0).val = (i 1).val := by
  unfold DotDims.rhsIdx
  rw [dif_neg (show ¬(0 : Fin S4096x128.rank) ∈ dot_S512x128_S4096x128_S512x4096_1_1_0_0_n_n.rhsBatch by decide),
    dif_pos (show (0 : Fin S4096x128.rank) ∈ dot_S512x128_S4096x128_S512x4096_1_1_0_0_n_n.rhsNonContracting by decide)]
  rfl
theorem up_rhs1 (i : S512x4096.Idx) (q : dot_S512x128_S4096x128_S512x4096_1_1_0_0_n_n.contr.Idx) :
    (dot_S512x128_S4096x128_S512x4096_1_1_0_0_n_n.rhsIdx i q 1).val = (q ⟨0, by decide⟩).val :=
  dot_S512x128_S4096x128_S512x4096_1_1_0_0_n_n.rhsIdx_val_of_single rfl i q

/-- The first product at `(p, r)`: the sum over the row of the left operand times row `r` of the matrix. -/
theorem matmul_down_at (A : FVec Ideal S512x4096 .f32) (p : Fin 512) (r : Fin 128) :
    matmul dot_S512x4096_S128x4096_S512x128_1_1_0_0_n_n (some .fp32) A x1 (constant (F := Ideal) S512x128 .f32 0x00000000#32) (ix2 p r)
      = ∑ k : Fin 4096, A (ix2 p k) * x1 (ix2 r k) := by
  show FloatOps.matmul dot_S512x4096_S128x4096_S512x128_1_1_0_0_n_n (some .fp32) A x1 (constant (F := Ideal) S512x128 .f32 0x00000000#32) (ix2 p r) = _
  rw [Ideal.matmul_constant_zero_apply, ← Equiv.sum_comp (contrEquiv1 dot_S512x4096_S128x4096_S512x128_1_1_0_0_n_n 4096 rfl rfl).symm]
  refine Finset.sum_congr rfl fun k _ => ?_
  have hk := contrEquiv1_symm_val dot_S512x4096_S128x4096_S512x128_1_1_0_0_n_n 4096 rfl rfl k
  have el : dot_S512x4096_S128x4096_S512x128_1_1_0_0_n_n.lhsIdx (ix2 p r) ((contrEquiv1 dot_S512x4096_S128x4096_S512x128_1_1_0_0_n_n 4096 rfl rfl).symm k) = ix2 p k :=
    funext fun a => Fin.ext (by
      match a with
      | ⟨0, _⟩ => exact down_lhs0 _ _
      | ⟨1, _⟩ => exact (down_lhs1 _ _).trans hk)
  have er : dot_S512x4096_S128x4096_S512x128_1_1_0_0_n_n.rhsIdx (ix2 p r) ((contrEquiv1 dot_S512x4096_S128x4096_S512x128_1_1_0_0_n_n 4096 rfl rfl).symm k) = ix2 r k :=
    funext fun a => Fin.ext (by
      match a with
      | ⟨0, _⟩ => exact down_rhs0 _ _
      | ⟨1, _⟩ => exact (down_rhs1 _ _).trans hk)
  rw [el, er]

/-- The second product at `(p, d)`: the sum over the row of the left operand times row `d` of the matrix. -/
theorem matmul_up_at (A : FVec Ideal S512x128 .f32) (p : Fin 512) (d : Fin 4096) :
    matmul dot_S512x128_S4096x128_S512x4096_1_1_0_0_n_n (some .fp32) A x2 (constant (F := Ideal) S512x4096 .f32 0x00000000#32) (ix2 p d)
      = ∑ k : Fin 128, A (ix2 p k) * x2 (ix2 d k) := by
  show FloatOps.matmul dot_S512x128_S4096x128_S512x4096_1_1_0_0_n_n (some .fp32) A x2 (constant (F := Ideal) S512x4096 .f32 0x00000000#32) (ix2 p d) = _
  rw [Ideal.matmul_constant_zero_apply, ← Equiv.sum_comp (contrEquiv1 dot_S512x128_S4096x128_S512x4096_1_1_0_0_n_n 128 rfl rfl).symm]
  refine Finset.sum_congr rfl fun k _ => ?_
  have hk := contrEquiv1_symm_val dot_S512x128_S4096x128_S512x4096_1_1_0_0_n_n 128 rfl rfl k
  have el : dot_S512x128_S4096x128_S512x4096_1_1_0_0_n_n.lhsIdx (ix2 p d) ((contrEquiv1 dot_S512x128_S4096x128_S512x4096_1_1_0_0_n_n 128 rfl rfl).symm k) = ix2 p k :=
    funext fun a => Fin.ext (by
      match a with
      | ⟨0, _⟩ => exact up_lhs0 _ _
      | ⟨1, _⟩ => exact (up_lhs1 _ _).trans hk)
  have er : dot_S512x128_S4096x128_S512x4096_1_1_0_0_n_n.rhsIdx (ix2 p d) ((contrEquiv1 dot_S512x128_S4096x128_S512x4096_1_1_0_0_n_n 128 rfl rfl).symm k) = ix2 d k :=
    funext fun a => Fin.ext (by
      match a with
      | ⟨0, _⟩ => exact up_rhs0 _ _
      | ⟨1, _⟩ => exact (up_rhs1 _ _).trans hk)
  rw [el, er]

/-- The down projection at `(p, r)`. -/
theorem down_at (p : Fin 512) (r : Fin 128) : downBlock x0 x1 (ix2 p r) = downProj (blockRow x0 p) x1 r := by
  unfold downBlock downProj
  rw [matmul_down_at]
  exact Finset.sum_congr rfl fun k _ => by rw [scaled_at]

/-- Through `u ↦ u · σ(u)` at `(p, r)`. -/
theorem silu_at (p : Fin 512) (r : Fin 128) : siluBlock x0 x1 (ix2 p r) = siluDown (blockRow x0 p) x1 r := by
  unfold siluBlock siluDown
  rw [mulf_apply, logistic_apply, down_at]

/-- The up projection at `(p, d)`. -/
theorem up_at (p : Fin 512) (d : Fin 4096) : upBlock x0 x1 x2 (ix2 p d) = upProj (blockRow x0 p) x1 x2 d := by
  unfold upBlock upProj
  rw [matmul_up_at]
  exact Finset.sum_congr rfl fun k _ => by rw [silu_at]

/-- Row `p` of the stored value is the gated normalisation of row `p` of the block. -/
theorem pay_at (p : Fin 512) (d : Fin 4096) :
    k0_pay1 (F := Ideal) x0 x1 x2 (ix2 p d) = gated (blockRow x0 p) x1 x2 d := by
  rw [pay_eq, mulf_apply, logistic_apply, scaled_at, up_at]
  rfl

end Cert.KernelIdeal.Block

end
-- ==== Proof.RowsLayout.lean ====
/-
  The input viewed as 16384 rows.

  The 4 × 4096 × 4096 array and the 16384 × 4096 array with the same entries in row-major order have the same rows:
  row `4096 · b + s` of the second is row `(b, s)` of the first.  Since the gated normalisation acts on each row by
  itself, applying it to the 16384 rows and viewing the outcome as 4 × 4096 × 4096 again gives the result array.
-/
import proofs.«111381_j56023553409270_2_alg».proof.Proof.GatedNorm
import Idealize.ShloMosaic.Lib.ValueIdx
import Idealize.ShloMosaic.Lib.Pipeline.Value

noncomputable section

namespace Cert.GatedNorm

open Idealize.ShloMosaic Idealize.ShloMosaic.ValueIdx

/-- The 16384 rows. -/
abbrev Rows := (⟨2, ![16384, 4096]⟩ : Shape).Idx → EReal

/-- The gated normalisation of each of the 16384 rows. -/
def rowsResult (A : Rows) (wd : DownW) (wu : UpW) : Rows :=
  fun i => gated (fun k => A (ix2 (⟨(i 0).val, (i 0).isLt⟩ : Fin 16384) k)) wd wu ⟨(i 1).val, (i 1).isLt⟩

theorem rowsResult_apply (A : Rows) (wd : DownW) (wu : UpW) (R : Fin 16384) (d : Fin 4096) :
    rowsResult A wd wu (ix2 R d) = gated (fun k => A (ix2 R k)) wd wu d := rfl

/-- Entry `k` of row `4096 · b + s` of the rows is entry `(b, s, k)` of the array. -/
theorem rows_of_arr (X : Arr) (h : (⟨3, ![4, 4096, 4096]⟩ : Shape).ShapeCasts ⟨2, ![16384, 4096]⟩)
    (b : Fin 4) (s : Fin 4096) (k : Fin 4096) (R : Fin 16384) (hR : R.val = 4096 * b.val + s.val) :
    shapeCast ⟨2, ![16384, 4096]⟩ X h (ix2 R k) = X (ix3 b s k) :=
  shapeCast_apply X h _ _ (by
    rw [Shape.rowMajor_val_three, Shape.rowMajor_val_two]
    show (b.val * 4096 + s.val) * 4096 + k.val = R.val * 4096 + k.val
    rw [hR]; omega)

/-- Entry `(b, s, d)` of the rows viewed as an array is entry `d` of row `4096 · b + s`. -/
theorem arr_of_rows (Y : Rows) (h : (⟨2, ![16384, 4096]⟩ : Shape).ShapeCasts ⟨3, ![4, 4096, 4096]⟩)
    (b : Fin 4) (s : Fin 4096) (d : Fin 4096) (R : Fin 16384) (hR : R.val = 4096 * b.val + s.val) :
    shapeCast ⟨3, ![4, 4096, 4096]⟩ Y h (ix3 b s d) = Y (ix2 R d) :=
  shapeCast_apply Y h _ _ (by
    rw [Shape.rowMajor_val_two, Shape.rowMajor_val_three]
    show R.val * 4096 + d.val = (b.val * 4096 + s.val) * 4096 + d.val
    rw [hR]; omega)

/-- Normalising the 16384 rows and viewing them as 4 × 4096 × 4096 again is the result array. -/
theorem result_of_rows (X : Arr) (wd : DownW) (wu : UpW)
    (h1 : (⟨3, ![4, 4096, 4096]⟩ : Shape).ShapeCasts ⟨2, ![16384, 4096]⟩)
    (h2 : (⟨2, ![16384, 4096]⟩ : Shape).ShapeCasts ⟨3, ![4, 4096, 4096]⟩) :
    shapeCast ⟨3, ![4, 4096, 4096]⟩ (rowsResult (shapeCast ⟨2, ![16384, 4096]⟩ X h1) wd wu) h2 = result X wd wu := by
  funext i
  obtain ⟨b, s, d, rfl⟩ : ∃ (b : Fin 4) (s : Fin 4096) (d : Fin 4096), i = ix3 b s d := ⟨i 0, i 1, i 2, eq_ix3 i⟩
  have hR : 4096 * b.val + s.val < 16384 := by omega
  rw [arr_of_rows _ h2 b s d ⟨_, hR⟩ rfl, rowsResult_apply, result_apply]
  refine congrArg (fun row => gated row wd wu d) (funext fun k => ?_)
  exact rows_of_arr X h1 b s k ⟨_, hR⟩ rfl

end Cert.GatedNorm

end
-- ==== Proof.KernelValue.lean ====
/-
  The kernel's result array.

  The program views the input as 16384 rows, runs the body at 32 grid points, and views the 16384 result rows as
  4 × 4096 × 4096 again.  Point `t` is given rows `512 t … 512 t + 511` of the rows and both matrices whole, and writes
  rows `512 t … 512 t + 511` of the result rows: the gated normalisation of exactly those rows.  The 32 blocks cover all
  16384 rows (row `R` belongs to point `R / 512`), so after the last point the result rows are the gated normalisation
  of the input's rows, and the final view is the result array.
-/
import proofs.«111381_j56023553409270_2_alg».proof.Proof.Gen.KernelIdeal.Frame
import proofs.«111381_j56023553409270_2_alg».proof.Proof.KernelBlock
import proofs.«111381_j56023553409270_2_alg».proof.Proof.RowsLayout
import Idealize.ShloMosaic.Lib.Pipeline.Value
import Idealize.ShloMosaic.Lib.ValueIdx
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.GatedNorm

variable (m : (ℓ : Loc nD τ sig) → Buf (Elt Ideal) ℓ) (ρ : Dev nD → PrngReg)

/-! ## One point -/

/-- A block whose row `p` is row `R` of the rows, beside the two matrices whole, is stored as row `R` of the
    normalised rows. -/
theorem block_row (X0 : FVec Ideal S512x4096 .f32) (X1 : FVec Ideal S128x4096 .f32) (X2 : FVec Ideal S4096x128 .f32)
    (A : Rows) (wd : DownW) (wu : UpW) (R : Fin 16384) (p : Fin 512) (d : Fin 4096)
    (h0 : ∀ k : Fin 4096, X0 (ix2 p k) = A (ix2 R k)) (h1 : ∀ y, X1 y = wd y) (h2 : ∀ y, X2 y = wu y) :
    k0_pay1 (F := Ideal) X0 X1 X2 (ix2 p d) = rowsResult A wd wu (ix2 R d) := by
  obtain rfl : X1 = wd := funext h1
  obtain rfl : X2 = wu := funext h2
  rw [Block.pay_at, rowsResult_apply]
  exact congrArg (fun row => gated row X1 X2 d) (funext h0)

theorem hz : (![0, 0] : Fin 2 → Nat) = fun _ => 0 := funext fun a => by fin_cases a <;> rfl

/-- The printed index maps over the grid: the input's and the result's row blocks move with the point, the matrices'
    blocks stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row block of the result rows is some point's. -/
theorem idx_onto : ∀ q : Fin 32, ∃ t : Fin cfg0.N, win0_3.index t = ![q.val, 0] :=
  (by decide +kernel : ∀ q : Fin 32, ∃ t : Fin grid0.N, win0_3.index t = ![q.val, 0])

/-- What point `t` writes back is block `t` of the normalised rows. -/
theorem flushed_eq (c : Dev nD) (t : Fin cfg0.N) :
    (dats m 0 c).flushed 3 t = ((cfg0.win 3).blk t).view.read (Elt Ideal)
      (rowsResult (V m c main_v0) (V m c main_arg1) (V m c main_arg2)) := by
  show (cfg0.win 3).cut (grid0.coords t) ((dats m 0 c).after 3 t) = _
  rw [after0_3]
  unfold out0_3
  rw [View.canon_unit_zero hz]
  simp only [View.ld_unit_zero (S := S512x4096) hz, View.ld_unit_zero (S := S128x4096) hz, View.ld_unit_zero (S := S4096x128) hz]
  obtain ⟨e00, e01, e10, e11, e20, e21, e30, e31⟩ := idx_facts t
  have ht : t.val < 32 := by have h := t.isLt; have hN : cfg0.N = 32 := N_0; omega
  funext j
  obtain ⟨p, d, rfl⟩ : ∃ (p : Fin 512) (d : Fin 4096), j = ix2 p d :=
    ⟨⟨(j 0).val, (j 0).isLt⟩, ⟨(j 1).val, (j 1).isLt⟩, funext fun a => by match a with | ⟨0, _⟩ => rfl | ⟨1, _⟩ => rfl⟩
  have hR : 512 * t.val + p.val < 16384 := by have := p.isLt; omega
  show k0_pay1 (F := Ideal) (iblk m c 0 t) (iblk m c 1 t) (iblk m c 2 t) (ix2 p d)
    = rowsResult (V m c main_v0) (V m c main_arg1) (V m c main_arg2) (((cfg0.win 3).blk t).view.emb (ix2 p d))
  have hemb : ((cfg0.win 3).blk t).view.emb (ix2 p d) = ix2 (⟨512 * t.val + p.val, hR⟩ : Fin 16384) d := by
    funext a; apply Fin.ext
    match a with
    | ⟨0, _⟩ => show win0_3.index t (0 : Fin 2) * 512 + 1 * p.val = 512 * t.val + p.val; omega
    | ⟨1, _⟩ => show win0_3.index t (1 : Fin 2) * 4096 + 1 * d.val = d.val; omega
  rw [hemb]
  refine block_row (iblk m c 0 t) (iblk m c 1 t) (iblk m c 2 t) (V m c main_v0) (V m c main_arg1) (V m c main_arg2)
    ⟨512 * t.val + p.val, hR⟩ p d ?_ ?_ ?_
  · intro k
    show V m c main_v0 (((cfg0.win 0).blk t).view.emb (ix2 p k)) = V m c main_v0 (ix2 (⟨512 * t.val + p.val, hR⟩ : Fin 16384) k)
    refine congrArg (V m c main_v0) (funext fun a => Fin.ext ?_)
    match a with
    | ⟨0, _⟩ => show win0_0.index t (0 : Fin 2) * 512 + 1 * p.val = 512 * t.val + p.val; omega
    | ⟨1, _⟩ => show win0_0.index t (1 : Fin 2) * 4096 + 1 * k.val = k.val; omega
  · intro y
    show V m c main_arg1 (((cfg0.win 1).blk t).view.emb y) = V m c main_arg1 y
    refine congrArg (V m c main_arg1) (funext fun a => Fin.ext ?_)
    match a with
    | ⟨0, _⟩ => show win0_1.index t (0 : Fin 2) * 128 + 1 * (y 0).val = (y 0).val; omega
    | ⟨1, _⟩ => show win0_1.index t (1 : Fin 2) * 4096 + 1 * (y 1).val = (y 1).val; omega
  · intro y
    show V m c main_arg2 (((cfg0.win 2).blk t).view.emb y) = V m c main_arg2 y
    refine congrArg (V m c main_arg2) (funext fun a => Fin.ext ?_)
    match a with
    | ⟨0, _⟩ => show win0_2.index t (0 : Fin 2) * 4096 + 1 * (y 0).val = (y 0).val; omega
    | ⟨1, _⟩ => show win0_2.index t (1 : Fin 2) * 128 + 1 * (y 1).val = (y 1).val; omega

/-! ## All points -/

/-- An index of the result rows is in point `t`'s block iff each coordinate is in the block's range. -/
theorem mem_blk (t : Fin cfg0.N) (i : S16384x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v1).slice (win0_3.rect t)).set ↔ _
  rw [View.set_slice_whole, Rect.mem_set_unit]
  exact Iff.rfl

/-- Row `R` is in the block of the point with row block `R / 512`. -/
theorem cover (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- After the last point the result rows are the normalised rows. -/
theorem final (c : Dev nD) :
    (dats m 0 c).arrAt 3 cfg0.N = rowsResult (V m c main_v0) (V m c main_arg1) (V m c main_arg2) :=
  (dats m 0 c).arrAt_eq_of_cover 3 _ (fun t _ => flushed_eq m c t) cover

/-! ## The views before and after -/

/-- The region finds the input viewed as 16384 rows. -/
theorem rows_in (c : Dev nD) : (V m c main_v0 : S16384x4096.Idx → Elt Ideal .f32)
    = shapeCast S16384x4096 (m ((c : Thread nD τ).loc main_arg0)) shapeCasts_S4x4096x4096_S16384x4096 := by
  show StableHlo.after hostOps0 (fun b => m (c, b)) (Proc.devRef .tc main_v0) = _
  after_results
  rfl

/-- The program's result: the result rows viewed as 4 × 4096 × 4096. -/
theorem tail_eq (c : Dev nD) : Pipeline.afterTail₀ cfgs (dats m) 0 (V0 m) [hostOps1] c main_v2
    = result (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = rowsResult (shapeCast S16384x4096 (m ((c : Thread nD τ).loc main_arg0)) shapeCasts_S4x4096x4096_S16384x4096)
          (m ((c : Thread nD τ).loc main_arg1)) (m ((c : Thread nD τ).loc main_arg2)) := by
    refine ((Pipeline.withArrays_arr spec0 launch0.win.arr_inj c _ _ 3).trans (final m c)).trans ?_
    rw [rows_in, V_main_arg1, V_main_arg2]
  rw [hw]
  exact result_of_rows _ _ _ _ _

/-! ## The run -/

/-- Every weakly fair execution of the program ends with the result array at the gated normalisation of the input's
    rows, the three arguments unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue

end
-- ==== Proof.ReferenceValue.lean ====
/-
  The reference computes the gated RMS normalisation, row by row.

  The reference's operations, read one at a time at an index `(b, s, ·)`, only ever look at row `(b, s)` of the
  input: the sum of squares runs along the last axis, the two matrix products contract the last axis of their left
  operand, and every other operation is pointwise or a broadcast along the last axis.  So each stage at `(b, s, ·)`
  is the corresponding stage of the one-row function.  The host's initial value of the sum is the zero word, which
  adds nothing; its logistic function is written as the quotient `1 / (1 + e^(-u))`, which is the logistic function's
  definition on the extended reals.
-/
import proofs.«111381_j56023553409270_2_alg».proof.Proof.Gen.ReferenceIdeal.Read
import proofs.«111381_j56023553409270_2_alg».proof.Proof.GatedNorm
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.GatedNorm

variable (x0 : (⟨S4x4096x4096, .f32⟩ : BufTy).Contents (Elt Ideal)) (x1 : (⟨S128x4096, .f32⟩ : BufTy).Contents (Elt Ideal))
  (x2 : (⟨S4096x128, .f32⟩ : BufTy).Contents (Elt Ideal))

/-- The sum over the last axis at `(b, s)` is the sum of squares of row `(b, s)`. -/
theorem sumSq_at (b : Fin 4) (s : Fin 4096) : val_main_v1 (F := Ideal) x0 (ix2 b s) = sumSq (rowOf x0 b s) := by
  rw [val_main_v1_apply]
  have hz : ∀ j, (val_main_cst (F := Ideal)) j = 0 := fun _ => Ideal.ofBits_zero_f32
  rw [hz, zero_add]
  unfold sumSq
  refine Finset.sum_congr rfl fun k _ => ?_
  have e : idx_main_v1 (ix2 b s) k = ix3 b s k :=
    funext fun a => Fin.ext (by match a with | ⟨0, _⟩ => rfl | ⟨1, _⟩ => rfl | ⟨2, _⟩ => rfl)
  rw [e, val_main_v0_apply]
  rfl

/-- The reciprocal root at `(b, s, 0)` is the scale of row `(b, s)`. -/
theorem scale_at (b : Fin 4) (s : Fin 4096) (u : Fin 1) :
    val_main_v7 (F := Ideal) x0 (ix3 b s u) = scale (rowOf x0 b s) := by
  rw [val_main_v7_apply, val_main_v6_apply, val_main_v4_apply, val_main_v2_apply, val_main_v3_apply, val_main_v5_apply,
    val_main_cst_0_apply, val_main_cst_1_apply]
  have e : idx_main_v2 (ix3 b s u) = ix2 b s :=
    funext fun a => Fin.ext (by match a with | ⟨0, _⟩ => rfl | ⟨1, _⟩ => rfl)
  rw [e, sumSq_at]
  rfl

/-- The scaled input at `(b, s, d)`. -/
theorem normed_at (b : Fin 4) (s : Fin 4096) (d : Fin 4096) :
    val_main_v9 (F := Ideal) x0 (ix3 b s d) = normed (rowOf x0 b s) d := by
  rw [val_main_v9_apply, val_main_v8_apply]
  have e : idx_main_v8 (ix3 b s d) = ix3 b s (0 : Fin 1) :=
    funext fun a => Fin.ext (by match a with | ⟨0, _⟩ => rfl | ⟨1, _⟩ => rfl | ⟨2, _⟩ => rfl)
  rw [e, scale_at]
  rfl

/-- The down projection at `(b, s, r)`. -/
theorem down_at (b : Fin 4) (s : Fin 4096) (r : Fin 128) :
    val_main_v10 (F := Ideal) x0 x1 (ix3 b s r) = downProj (rowOf x0 b s) x1 r := by
  rw [val_main_v10_apply]
  unfold downProj
  refine Finset.sum_congr rfl fun k _ => ?_
  have el : lidx_main_v10 (ix3 b s r) k = ix3 b s k :=
    funext fun a => Fin.ext (by match a with | ⟨0, _⟩ => rfl | ⟨1, _⟩ => rfl | ⟨2, _⟩ => rfl)
  have er : ridx_main_v10 (ix3 b s r) k = ix2 r k :=
    funext fun a => Fin.ext (by match a with | ⟨0, _⟩ => rfl | ⟨1, _⟩ => rfl)
  rw [el, er, normed_at]

/-- The down projection through `u ↦ u · σ(u)` at `(b, s, r)`: the called function's quotient is the logistic. -/
theorem hidden_at (b : Fin 4) (s : Fin 4096) (r : Fin 128) :
    val_main_v11 (F := Ideal) x0 x1 (ix3 b s r) = siluDown (rowOf x0 b s) x1 r := by
  rw [val_main_v11_apply, val_main_call0_v5_apply, val_main_call0_v4_apply, val_main_call0_cst_0_apply,
    val_main_call0_v3_apply, val_main_call0_v2_apply, val_main_call0_cst_apply, val_main_call0_v1_apply,
    val_main_call0_v0_apply, down_at]
  unfold siluDown
  show downProj (rowOf x0 b s) x1 r * Ideal.div (Ideal.ofBits .f32 0x3F800000#32)
      (Ideal.ofBits .f32 0x3F800000#32 + Ideal.exp (-(downProj (rowOf x0 b s) x1 r))) = _
  rw [logistic_eq_quotient]

/-- The up projection at `(b, s, d)`. -/
theorem up_at (b : Fin 4) (s : Fin 4096) (d : Fin 4096) :
    val_main_v12 (F := Ideal) x0 x1 x2 (ix3 b s d) = upProj (rowOf x0 b s) x1 x2 d := by
  rw [val_main_v12_apply]
  unfold upProj
  refine Finset.sum_congr rfl fun k _ => ?_
  have el : lidx_main_v12 (ix3 b s d) k = ix3 b s k :=
    funext fun a => Fin.ext (by match a with | ⟨0, _⟩ => rfl | ⟨1, _⟩ => rfl | ⟨2, _⟩ => rfl)
  have er : ridx_main_v12 (ix3 b s d) k = ix2 d k :=
    funext fun a => Fin.ext (by match a with | ⟨0, _⟩ => rfl | ⟨1, _⟩ => rfl)
  rw [el, er, hidden_at]

/-- The result at `(b, s, d)`: the scaled input times the logistic of the up projection. -/
theorem gated_at (b : Fin 4) (s : Fin 4096) (d : Fin 4096) :
    val_main_v19 (F := Ideal) x0 x1 x2 (ix3 b s d) = gated (rowOf x0 b s) x1 x2 d := by
  rw [val_main_v19_apply, val_main_v18_apply, val_main_v17_apply, val_main_cst_3_apply, val_main_v16_apply,
    val_main_v15_apply, val_main_cst_2_apply, val_main_v14_apply, val_main_v13_apply, up_at, normed_at]
  unfold gated
  show normed (rowOf x0 b s) d * Ideal.div (Ideal.ofBits .f32 0x3F800000#32)
      (Ideal.ofBits .f32 0x3F800000#32 + Ideal.exp (-(upProj (rowOf x0 b s) x1 x2 d))) = _
  rw [logistic_eq_quotient]

/-- The reference's result array is the gated normalisation of the input's rows. -/
theorem reference_eq : val_main_v19 (F := Ideal) x0 x1 x2 = result x0 x1 x2 := by
  funext i
  obtain ⟨b, s, d, rfl⟩ : ∃ (b : Fin 4) (s : Fin 4096) (d : Fin 4096), i = ix3 b s d := ⟨i 0, i 1, i 2, eq_ix3 i⟩
  rw [gated_at, result_apply]

end Cert.ReferenceIdeal.RefValue

end
-- ==== Proof.lean ====
/-
  A gated RMS normalisation, tiled over rows, against its plain formulation.

  Both programs take an input `x` of shape 4 × 4096 × 4096 and two matrices `W_down` (128 × 4096) and `W_up`
  (4096 × 128).  Each of the 16384 rows of `x` is scaled by the reciprocal root of its mean square plus 2⁻²³,
  projected down by `W_down`, passed through `u ↦ u · σ(u)` (`σ` the logistic function), projected up by `W_up`, and the
  scaled row is multiplied entry by entry by the logistic of that.  No row's result depends on another row.

  The kernel views `x` as 16384 rows and handles 512 of them at each of 32 grid points, with both matrices whole at
  every point; the reference works on the 4 × 4096 × 4096 array directly.  On the extended reals the two agree
  exactly, entry by entry: the float words for 4096, 2⁻²³ and 1 are the same on both sides; the kernel's lane sum and the
  host's sum (from a zero initial value) are one sum in one order, and likewise the kernel's matrix products into a zero
  accumulator and the host's contractions; the kernel's logistic operation and the host's quotient `1 / (1 + e^(-u))`
  are one function by the logistic's definition, infinities included; and the tiling only says which point computes
  which rows.  No law that could fail at an infinity is used, so the hypothesis that the inputs are finite is not needed.

  The kernel's and its idealization's frames are the generated ones; the reference's frame is its generated run with the
  result dropped; the idealization rewrote nothing, so there is nothing to preserve.
-/
import proofs.«111381_j56023553409270_2_alg».proof.Defs
import proofs.«111381_j56023553409270_2_alg».proof.Proof.Gen.Kernel
import proofs.«111381_j56023553409270_2_alg».proof.Proof.Gen.Kernel.Frame
import proofs.«111381_j56023553409270_2_alg».proof.Proof.Gen.KernelIdeal
import proofs.«111381_j56023553409270_2_alg».proof.Proof.Gen.KernelIdeal.Frame
import proofs.«111381_j56023553409270_2_alg».proof.Proof.Gen.ReferenceIdeal
import proofs.«111381_j56023553409270_2_alg».proof.Proof.Gen.ReferenceIdeal.Run
import proofs.«111381_j56023553409270_2_alg».proof.Proof.Gen.ReferenceIdeal.Read
import proofs.«111381_j56023553409270_2_alg».proof.Proof.Gen.Pre_finite_inputs
import proofs.«111381_j56023553409270_2_alg».proof.Proof.KernelValue
import proofs.«111381_j56023553409270_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the gated normalisation of the input's rows: the kernel by its 32 blocks of rows, the
    reference stage by stage; arguments that agree give the same array. -/
theorem algebraic : Cert.algebraic_KernelIdeal_ReferenceIdeal := by
  intro m ρ m' ρ' _ hagree
  refine ⟨fun c => Cert.GatedNorm.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v19_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
